-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192x3072 : Shape := ⟨3, ![1, 8192, 3072]⟩
abbrev S1x3072 : Shape := ⟨2, ![1, 3072]⟩
abbrev S9216x3072 : Shape := ⟨2, ![9216, 3072]⟩
abbrev S9216 : Shape := ⟨1, ![9216]⟩
abbrev S_ : Shape := ⟨0, ![]⟩

class Facts : Prop where
  bcast_S_S1x8192x3072 : S_.BroadcastsInDim S1x8192x3072 (![] : Fin 0 → Fin S1x8192x3072.rank)
  reducesTo_S1x8192x3072_S_d0_1_2 : S1x8192x3072.ReducesTo [0, 1, 2] S_
  h_S_ : 0 < S_.numel
  bcast_S_S1x3072 : S_.BroadcastsInDim S1x3072 (![] : Fin 0 → Fin S1x3072.rank)
  reducesTo_S1x3072_S_d0_1 : S1x3072.ReducesTo [0, 1] S_
  bcast_S_S9216x3072 : S_.BroadcastsInDim S9216x3072 (![] : Fin 0 → Fin S9216x3072.rank)
  reducesTo_S9216x3072_S_d0_1 : S9216x3072.ReducesTo [0, 1] S_
  bcast_S_S9216 : S_.BroadcastsInDim S9216 (![] : Fin 0 → Fin S9216.rank)
  reducesTo_S9216_S_d0 : S9216.ReducesTo [0] S_

variable [Facts]

def fn_part1 {F : FTy → Type} [FloatOps F] (main_v13 : IVec S_ 1) (main_v16 : IVec S9216 1) : IVec S_ 1 :=
  let main_c_5 : IVec S_ 1 := constantI S_ 1 1#1
  let main_v17 : IVec S_ 1 := (fun x v => Host.reduce IntOp.andi x v reducesTo_S9216_S_d0 h_S_) main_v16 main_c_5
  let main_v18 : IVec S_ 1 := andi main_v13 main_v17
  main_v18

def fn {F : FTy → Type} [FloatOps F] (main_arg0 : FVec F S1x8192x3072 .f32) (main_arg1 : FVec F S1x3072 .f32) (main_arg2 : FVec F S9216x3072 .f32) (main_arg3 : FVec F S9216 .f32) : IVec S_ 1 :=
  let main_v0 : FVec F S1x8192x3072 .f32 := Host.absf main_arg0
  let main_cst : FVec F S_ .f32 := constant S_ .f32 0x7F800000#32
  let main_v1 : FVec F S1x8192x3072 .f32 := broadcastInDim S1x8192x3072 ![] bcast_S_S1x8192x3072 main_cst
  let main_v2 : IVec S1x8192x3072 1 := cmpf .olt main_v0 main_v1
  let main_c : IVec S_ 1 := constantI S_ 1 1#1
  let main_v3 : IVec S_ 1 := (fun x v => Host.reduce IntOp.andi x v reducesTo_S1x8192x3072_S_d0_1_2 h_S_) main_v2 main_c
  let main_v4 : FVec F S1x3072 .f32 := Host.absf main_arg1
  let main_cst_0 : FVec F S_ .f32 := constant S_ .f32 0x7F800000#32
  let main_v5 : FVec F S1x3072 .f32 := broadcastInDim S1x3072 ![] bcast_S_S1x3072 main_cst_0
  let main_v6 : IVec S1x3072 1 := cmpf .olt main_v4 main_v5
  let main_c_1 : IVec S_ 1 := constantI S_ 1 1#1
  let main_v7 : IVec S_ 1 := (fun x v => Host.reduce IntOp.andi x v reducesTo_S1x3072_S_d0_1 h_S_) main_v6 main_c_1
  let main_v8 : IVec S_ 1 := andi main_v3 main_v7
  let main_v9 : FVec F S9216x3072 .f32 := Host.absf main_arg2
  let main_cst_2 : FVec F S_ .f32 := constant S_ .f32 0x7F800000#32
  let main_v10 : FVec F S9216x3072 .f32 := broadcastInDim S9216x3072 ![] bcast_S_S9216x3072 main_cst_2
  let main_v11 : IVec S9216x3072 1 := cmpf .olt main_v9 main_v10
  let main_c_3 : IVec S_ 1 := constantI S_ 1 1#1
  let main_v12 : IVec S_ 1 := (fun x v => Host.reduce IntOp.andi x v reducesTo_S9216x3072_S_d0_1 h_S_) main_v11 main_c_3
  let main_v13 : IVec S_ 1 := andi main_v8 main_v12
  let main_v14 : FVec F S9216 .f32 := Host.absf main_arg3
  let main_cst_4 : FVec F S_ .f32 := constant S_ .f32 0x7F800000#32
  let main_v15 : FVec F S9216 .f32 := broadcastInDim S9216 ![] bcast_S_S9216 main_cst_4
  let main_v16 : IVec S9216 1 := cmpf .olt main_v14 main_v15
  fn_part1 (F := F) main_v13 main_v16
-- ==== Kernel.lean ====
abbrev S1x8192x3072 : Shape := ⟨3, ![1, 8192, 3072]⟩
abbrev S1x3072 : Shape := ⟨2, ![1, 3072]⟩
abbrev S9216x3072 : Shape := ⟨2, ![9216, 3072]⟩
abbrev S9216 : Shape := ⟨1, ![9216]⟩
abbrev S_ : Shape := ⟨0, ![]⟩
abbrev S1x9216 : Shape := ⟨2, ![1, 9216]⟩
abbrev S512x3072 : Shape := ⟨2, ![512, 3072]⟩
abbrev S1x512 : Shape := ⟨2, ![1, 512]⟩
abbrev S1x3072x3 : Shape := ⟨3, ![1, 3072, 3]⟩
abbrev S1x3072x1 : Shape := ⟨3, ![1, 3072, 1]⟩
abbrev S1x256x3072 : Shape := ⟨3, ![1, 256, 3072]⟩
abbrev S1x256 : Shape := ⟨2, ![1, 256]⟩
abbrev S1x256x1 : Shape := ⟨3, ![1, 256, 1]⟩
abbrev S1x1x3072 : Shape := ⟨3, ![1, 1, 3072]⟩

abbrev nBuf : Space → Nat
  | .hbm => 24
  | .vmem => 13
  | .smem => 0
  | _ => 0

abbrev bufTy : (tb : Table) → Fin (tcTables nBuf tb) → BufTy
  | .hbm, ⟨0, _⟩ => ⟨S1x8192x3072, .f32⟩
  | .hbm, ⟨1, _⟩ => ⟨S1x3072, .f32⟩
  | .hbm, ⟨2, _⟩ => ⟨S9216x3072, .f32⟩
  | .hbm, ⟨3, _⟩ => ⟨S9216, .f32⟩
  | .hbm, ⟨4, _⟩ => ⟨S1x3072, .f32⟩
  | .hbm, ⟨5, _⟩ => ⟨S1x3072, .f32⟩
  | .hbm, ⟨6, _⟩ => ⟨S_, .f32⟩
  | .hbm, ⟨7, _⟩ => ⟨S1x3072, .f32⟩
  | .hbm, ⟨8, _⟩ => ⟨S1x3072, .f32⟩
  | .hbm, ⟨9, _⟩ => ⟨S_, .f32⟩
  | .hbm, ⟨10, _⟩ => ⟨S1x3072, .f32⟩
  | .hbm, ⟨11, _⟩ => ⟨S1x3072, .f32⟩
  | .hbm, ⟨12, _⟩ => ⟨S1x3072, .f32⟩
  | .hbm, ⟨13, _⟩ => ⟨S1x3072, .bf16⟩
  | .hbm, ⟨14, _⟩ => ⟨S1x9216, .f32⟩
  | .hbm, ⟨15, _⟩ => ⟨S1x9216, .f32⟩
  | .hbm, ⟨16, _⟩ => ⟨S1x3072x3, .f32⟩
  | .hbm, ⟨17, _⟩ => ⟨S1x3072x1, .f32⟩
  | .hbm, ⟨18, _⟩ => ⟨S1x3072, .f32⟩
  | .hbm, ⟨19, _⟩ => ⟨S1x3072x1, .f32⟩
  | .hbm, ⟨20, _⟩ => ⟨S1x3072, .f32⟩
  | .hbm, ⟨21, _⟩ => ⟨S1x3072x1, .f32⟩
  | .hbm, ⟨22, _⟩ => ⟨S1x3072, .f32⟩
  | .hbm, ⟨23, _⟩ => ⟨S1x8192x3072, .f32⟩
  | .local _ .vmem, ⟨0, _⟩ => ⟨S1x3072, .bf16⟩
  | .local _ .vmem, ⟨1, _⟩ => ⟨S512x3072, .f32⟩
  | .local _ .vmem, ⟨2, _⟩ => ⟨S512x3072, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x256x3072, .f32⟩
  | .local _ .vmem, ⟨8, _⟩ => ⟨S1x256x3072, .f32⟩
  | .local _ .vmem, ⟨9, _⟩ => ⟨S1x3072, .f32⟩
  | .local _ .vmem, ⟨10, _⟩ => ⟨S1x3072, .f32⟩
  | .local _ .vmem, ⟨11, _⟩ => ⟨S1x256x3072, .f32⟩
  | .local _ .vmem, ⟨12, _⟩ => ⟨S1x256x3072, .f32⟩
  | _, _ => ⟨S1x8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x256x3072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x3072 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x3072 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x256x3072 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1x3072 : S_.BroadcastsInDim S1x3072 (![] : Fin 0 → Fin S1x3072.rank)
  bitsLt_bf16_f32 : FTy.bits .bf16 < FTy.bits .f32
  shapeCasts_S9216_S1x9216 : S9216.ShapeCasts S1x9216
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  inb_S512x3072_S512x3072_0_0 : ∀ a, (![0, 0] : Fin 2 → Nat) a + S512x3072.size a ≤ S512x3072.size a
  h_S512x3072 : 0 < S512x3072.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x9216_S1x3072x3 : S1x9216.ShapeCasts S1x3072x3
  slices_S1x3072x3_S1x3072x1_0_0_0 : S1x3072x3.Slices ![0, 0, 0] S1x3072x1
  shapeCasts_S1x3072x1_S1x3072 : S1x3072x1.ShapeCasts S1x3072
  slices_S1x3072x3_S1x3072x1_0_0_1 : S1x3072x3.Slices ![0, 0, 1] S1x3072x1
  slices_S1x3072x3_S1x3072x1_0_0_2 : S1x3072x3.Slices ![0, 0, 2] S1x3072x1
  inb_S1x256x3072_S1x256x3072_0_0_0 : ∀ a, (![0, 0, 0] : Fin 3 → Nat) a + S1x256x3072.size a ≤ S1x256x3072.size a
  h_S1x256x3072 : 0 < S1x256x3072.numel
  reduces_S1x256x3072_S1x256 : S1x256x3072.Reduces [2] S1x256
  shapeCasts_S1x256_S1x256x1 : S1x256.ShapeCasts S1x256x1
  broadcasts_S1x256x1_S1x256x3072 : S1x256x1.Broadcasts S1x256x3072
  shapeCasts_S1x3072_S1x1x3072 : S1x3072.ShapeCasts S1x1x3072
  broadcasts_S1x1x3072_S1x256x3072 : S1x1x3072.Broadcasts S1x256x3072
  dot_S1x3072_S512x3072_S1x512_1_1_0_0_n_n_wf : DotDims.WF S1x3072 S512x3072 S1x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x3072.size a ≤ S1x3072.size a
  hwx0_0 : ∀ i : grid0.Coords, EltTy.bits .bf16 = 32 ∨ (Rect.block (s := S1x3072) S1x3072.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3072.size a ≤ S9216x3072.size a
  hwx0_1 : ∀ i : grid0.Coords, EltTy.bits .f32 = 32 ∨ (Rect.block (s := S9216x3072) S512x3072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x9216.size a
  hwx0_2 : ∀ i : grid0.Coords, EltTy.bits .f32 = 32 ∨ (Rect.block (s := S1x9216) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x9216.size a
  hwx0_3 : ∀ i : grid0.Coords, EltTy.bits .f32 = 32 ∨ (Rect.block (s := S1x9216) S1x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x3072.size a ≤ S1x8192x3072.size a
  hwx1_0 : ∀ i : grid1.Coords, EltTy.bits .f32 = 32 ∨ (Rect.block (s := S1x8192x3072) S1x256x3072.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x3072.size a ≤ S1x3072.size a
  hwx1_1 : ∀ i : grid1.Coords, EltTy.bits .f32 = 32 ∨ (Rect.block (s := S1x3072) S1x3072.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x3072.size a ≤ S1x3072.size a
  hwx1_2 : ∀ i : grid1.Coords, EltTy.bits .f32 = 32 ∨ (Rect.block (s := S1x3072) S1x3072.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x3072.size a ≤ S1x8192x3072.size a
  hwx1_3 : ∀ i : grid1.Coords, EltTy.bits .f32 = 32 ∨ (Rect.block (s := S1x8192x3072) S1x256x3072.size (cc1_transform_3 i) (hinb1_3 i)).WholeWords (EltTy.packing .f32)

variable [Facts₀]

def dot_S1x3072_S512x3072_S1x512_1_1_0_0_n_n : DotDims S1x3072 S512x3072 S1x512 where
  lhsContracting := [1]
  rhsContracting := [1]
  lhsNonContracting := [0]
  rhsNonContracting := [0]
  lhsBatch := []
  rhsBatch := []
  wf := dot_S1x3072_S512x3072_S1x512_1_1_0_0_n_n_wf

abbrev win0_0 : Pipeline.Window sig grid0 :=
  Pipeline.Window.ofSpec (Memref.whole main_v7) S1x3072.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x256x3072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x3072.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x3072.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x256x3072.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1x8192x3072 : Shape := ⟨3, ![1, 8192, 3072]⟩
abbrev S1x3072 : Shape := ⟨2, ![1, 3072]⟩
abbrev S9216x3072 : Shape := ⟨2, ![9216, 3072]⟩
abbrev S9216 : Shape := ⟨1, ![9216]⟩
abbrev S_ : Shape := ⟨0, ![]⟩
abbrev S3072x9216 : Shape := ⟨2, ![3072, 9216]⟩
abbrev S1x9216 : Shape := ⟨2, ![1, 9216]⟩
abbrev S1x3072x3 : Shape := ⟨3, ![1, 3072, 3]⟩
abbrev S1x3072x1 : Shape := ⟨3, ![1, 3072, 1]⟩
abbrev S1x8192 : Shape := ⟨2, ![1, 8192]⟩
abbrev S1x8192x1 : Shape := ⟨3, ![1, 8192, 1]⟩
abbrev S1x1x3072 : Shape := ⟨3, ![1, 1, 3072]⟩

abbrev nBuf : Space → Nat
  | .hbm => 53
  | .vmem => 0
  | .smem => 0
  | _ => 0

abbrev bufTy : (tb : Table) → Fin (tcTables nBuf tb) → BufTy
  | .hbm, ⟨0, _⟩ => ⟨S1x8192x3072, .f32⟩
  | .hbm, ⟨1, _⟩ => ⟨S1x3072, .f32⟩
  | .hbm, ⟨2, _⟩ => ⟨S9216x3072, .f32⟩
  | .hbm, ⟨3, _⟩ => ⟨S9216, .f32⟩
  | .hbm, ⟨4, _⟩ => ⟨S1x3072, .f32⟩
  | .hbm, ⟨5, _⟩ => ⟨S1x3072, .f32⟩
  | .hbm, ⟨6, _⟩ => ⟨S_, .f32⟩
  | .hbm, ⟨7, _⟩ => ⟨S1x3072, .f32⟩
  | .hbm, ⟨8, _⟩ => ⟨S1x3072, .f32⟩
  | .hbm, ⟨9, _⟩ => ⟨S_, .f32⟩
  | .hbm, ⟨10, _⟩ => ⟨S1x3072, .f32⟩
  | .hbm, ⟨11, _⟩ => ⟨S1x3072, .f32⟩
  | .hbm, ⟨12, _⟩ => ⟨S1x3072, .f32⟩
  | .hbm, ⟨13, _⟩ => ⟨S3072x9216, .f32⟩
  | .hbm, ⟨14, _⟩ => ⟨S1x9216, .f32⟩
  | .hbm, ⟨15, _⟩ => ⟨S1x9216, .f32⟩
  | .hbm, ⟨16, _⟩ => ⟨S1x9216, .f32⟩
  | .hbm, ⟨17, _⟩ => ⟨S1x3072x3, .f32⟩
  | .hbm, ⟨18, _⟩ => ⟨S1x3072x1, .f32⟩
  | .hbm, ⟨19, _⟩ => ⟨S1x3072, .f32⟩
  | .hbm, ⟨20, _⟩ => ⟨S1x3072x1, .f32⟩
  | .hbm, ⟨21, _⟩ => ⟨S1x3072, .f32⟩
  | .hbm, ⟨22, _⟩ => ⟨S1x3072x1, .f32⟩
  | .hbm, ⟨23, _⟩ => ⟨S1x3072, .f32⟩
  | .hbm, ⟨24, _⟩ => ⟨S_, .f32⟩
  | .hbm, ⟨25, _⟩ => ⟨S1x8192, .f32⟩
  | .hbm, ⟨26, _⟩ => ⟨S1x8192x1, .f32⟩
  | .hbm, ⟨27, _⟩ => ⟨S_, .f32⟩
  | .hbm, ⟨28, _⟩ => ⟨S1x8192x1, .f32⟩
  | .hbm, ⟨29, _⟩ => ⟨S1x8192x1, .f32⟩
  | .hbm, ⟨30, _⟩ => ⟨S1x8192x3072, .f32⟩
  | .hbm, ⟨31, _⟩ => ⟨S1x8192x3072, .f32⟩
  | .hbm, ⟨32, _⟩ => ⟨S1x8192x3072, .f32⟩
  | .hbm, ⟨33, _⟩ => ⟨S_, .f32⟩
  | .hbm, ⟨34, _⟩ => ⟨S1x8192, .f32⟩
  | .hbm, ⟨35, _⟩ => ⟨S1x8192x1, .f32⟩
  | .hbm, ⟨36, _⟩ => ⟨S_, .f32⟩
  | .hbm, ⟨37, _⟩ => ⟨S1x8192x1, .f32⟩
  | .hbm, ⟨38, _⟩ => ⟨S1x8192x1, .f32⟩
  | .hbm, ⟨39, _⟩ => ⟨S1x8192x3072, .f32⟩
  | .hbm, ⟨40, _⟩ => ⟨S1x8192x3072, .f32⟩
  | .hbm, ⟨41, _⟩ => ⟨S_, .f32⟩
  | .hbm, ⟨42, _⟩ => ⟨S1x8192x1, .f32⟩
  | .hbm, ⟨43, _⟩ => ⟨S1x8192x1, .f32⟩
  | .hbm, ⟨44, _⟩ => ⟨S1x8192x1, .f32⟩
  | .hbm, ⟨45, _⟩ => ⟨S1x8192x3072, .f32⟩
  | .hbm, ⟨46, _⟩ => ⟨S1x8192x3072, .f32⟩
  | .hbm, ⟨47, _⟩ => ⟨S1x1x3072, .f32⟩
  | .hbm, ⟨48, _⟩ => ⟨S1x8192x3072, .f32⟩
  | .hbm, ⟨49, _⟩ => ⟨S1x8192x3072, .f32⟩
  | .hbm, ⟨50, _⟩ => ⟨S1x1x3072, .f32⟩
  | .hbm, ⟨51, _⟩ => ⟨S1x8192x3072, .f32⟩
  | .hbm, ⟨52, _⟩ => ⟨S1x8192x3072, .f32⟩
  | _, _ => ⟨S1x8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  bcast_S_S1x3072 : S_.BroadcastsInDim S1x3072 (![] : Fin 0 → Fin S1x3072.rank)
  transposes_S9216x3072_S3072x9216_1_0 : S9216x3072.Transposes [1, 0] S3072x9216
  bcast_S9216_S1x9216_1 : S9216.BroadcastsInDim S1x9216 (![1] : Fin 1 → Fin S1x9216.rank)
  shapeCasts_S1x9216_S1x3072x3 : S1x9216.ShapeCasts S1x3072x3
  slices_S1x3072x3_S1x3072x1_0_0_0 : S1x3072x3.Slices ![0, 0, 0] S1x3072x1
  shapeCasts_S1x3072x1_S1x3072 : S1x3072x1.ShapeCasts S1x3072
  slices_S1x3072x3_S1x3072x1_0_0_1 : S1x3072x3.Slices ![0, 0, 1] S1x3072x1
  slices_S1x3072x3_S1x3072x1_0_0_2 : S1x3072x3.Slices ![0, 0, 2] S1x3072x1
  reducesTo_S1x8192x3072_S1x8192_d2 : S1x8192x3072.ReducesTo [2] S1x8192
  h_S_ : 0 < S_.numel
  bcast_S1x8192_S1x8192x1_0_1 : S1x8192.BroadcastsInDim S1x8192x1 (![0, 1] : Fin 2 → Fin S1x8192x1.rank)
  bcast_S_S1x8192x1 : S_.BroadcastsInDim S1x8192x1 (![] : Fin 0 → Fin S1x8192x1.rank)
  bcast_S1x8192x1_S1x8192x3072_0_1_2 : S1x8192x1.BroadcastsInDim S1x8192x3072 (![0, 1, 2] : Fin 3 → Fin S1x8192x3072.rank)
  bcast_S1x3072_S1x1x3072_0_2 : S1x3072.BroadcastsInDim S1x1x3072 (![0, 2] : Fin 2 → Fin S1x1x3072.rank)
  bcast_S1x1x3072_S1x8192x3072_0_1_2 : S1x1x3072.BroadcastsInDim S1x8192x3072 (![0, 1, 2] : Fin 3 → Fin S1x8192x3072.rank)
  dot_S1x3072_S3072x9216_S1x9216_1_0_0_1_n_n_wf : DotDims.WF S1x3072 S3072x9216 S1x9216 [1] [0] [0] [1] [] []

variable [Facts₀]

def dot_S1x3072_S3072x9216_S1x9216_1_0_0_1_n_n : DotDims S1x3072 S3072x9216 S1x9216 where
  lhsContracting := [1]
  rhsContracting := [0]
  lhsNonContracting := [0]
  rhsNonContracting := [1]
  lhsBatch := []
  rhsBatch := []
  wf := dot_S1x3072_S3072x9216_S1x9216_1_0_0_1_n_n_wf

class Facts : Prop extends Facts₀ where

variable [Facts]
-- ==== Proof.KRun.lean ====
/-
  The idealized kernel's run with every buffer named.

  The program is two kernel launches between stretches of host operations. Its run is read as a chain of buffer
  contents: the launch memory, the contents after the first host stretch, after the first launch (the projection
  kernel's output array rewritten by its blocks), after the second host stretch, and after the second launch (the
  normalisation kernel's output array rewritten by its blocks). This module states that every weakly fair execution
  terminates with EVERY unscoped buffer at the last of these contents; the later modules read the two result buffers
  out of it.
-/
import proofs.«155451_j36112085025538_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in the final memory every unscoped
    buffer of every core holds the contents the chain of segments ends at. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The two result buffers and the four argument buffers in the final memory: the results at the last contents, the
    arguments as launched. -/
theorem run_results : θ_run defs (onTc (τ := τ) (main (F := F))) ⟨m, fun _ => 0, ρ⟩ (fun r => ∀ c : Dev nD,
      r.2.mem ((c.tc : Thread nD τ).loc main_v17) = W4 m ρ c (Proc.devRef .tc main_v17)
      ∧ r.2.mem ((c.tc : Thread nD τ).loc main_v16) = W4 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v17 (by decide)),
     h c _ (mem_uc main_v16 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩)
    (run_all m ρ)

end Cert.KernelIdeal.KRun

end
-- ==== Proof.KPay0.lean ====
/-
  What the projection kernel stores, entry by entry.

  The body holds the activated embedding row (1 × 3072), a block of 512 rows of W (512 × 3072) and a block of 512
  entries of b (1 × 512). It contracts the embedding row with each row of the W block over their 3072 columns, into a
  zero accumulator, and adds the bias entry. Read at column j of the block this is Σ_k s(0, k) · W(j, k) + b(0, j).
-/
import proofs.«155451_j36112085025538_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.KPay0

open Cert.KernelIdeal Cert.KernelIdeal.Gen Cert.KernelIdeal.Facts₀
open Idealize.ShloMosaic Idealize.ShloMosaic.ValueIdx

/-- The contraction's dimension numbers: both operands contracted on their columns. -/
abbrev D := dot_S1x3072_S512x3072_S1x512_1_1_0_0_n_n

/-- The left operand is read at (row of the output, k) … -/
theorem lhs_row (i : S1x512.Idx) (q : D.contr.Idx) : (D.lhsIdx i q 0).val = (i 0).val := by
  unfold DotDims.lhsIdx
  rw [dif_neg (show ¬(0 : Fin S1x3072.rank) ∈ D.lhsBatch by decide), dif_pos (show (0 : Fin S1x3072.rank) ∈ D.lhsNonContracting by decide)]
  rfl
theorem lhs_col (i : S1x512.Idx) (q : D.contr.Idx) : (D.lhsIdx i q 1).val = (q ⟨0, by decide⟩).val :=
  D.lhsIdx_val_of_single rfl i q
/-- … and the right operand at (column of the output, k): the W block is contracted on its columns too. -/
theorem rhs_row (i : S1x512.Idx) (q : D.contr.Idx) : (D.rhsIdx i q 0).val = (i 1).val := by
  unfold DotDims.rhsIdx
  rw [dif_neg (show ¬(0 : Fin S512x3072.rank) ∈ D.rhsBatch by decide), dif_pos (show (0 : Fin S512x3072.rank) ∈ D.rhsNonContracting by decide)]
  rfl
theorem rhs_col (i : S1x512.Idx) (q : D.contr.Idx) : (D.rhsIdx i q 1).val = (q ⟨0, by decide⟩).val :=
  D.rhsIdx_val_of_single rfl i q

/-- The contraction into the zero accumulator at output (u, j): the sum over the 3072 columns. -/
theorem contract_apply (l : FVec Ideal S1x3072 .bf16) (r : FVec Ideal S512x3072 .bf16) (u : Fin 1) (j : Fin 512) :
    matmul D none l r (constant S1x512 .f32 0x00000000#32) (ix2 u j) = ∑ k : Fin 3072, l (ix2 u k) * r (ix2 j k) := by
  simp only [matmul]
  rw [Ideal.matmul_constant_zero_apply, ← Equiv.sum_comp (contrEquiv1 D 3072 rfl rfl).symm]
  refine Finset.sum_congr rfl fun k _ => ?_
  have hk := contrEquiv1_symm_val D 3072 rfl rfl k
  have el : D.lhsIdx (ix2 u j) ((contrEquiv1 D 3072 rfl rfl).symm k) = ix2 u k := funext fun a => Fin.ext (by
    match a with
    | ⟨0, _⟩ => exact lhs_row _ _
    | ⟨1, _⟩ => exact (lhs_col _ _).trans hk)
  have er : D.rhsIdx (ix2 u j) ((contrEquiv1 D 3072 rfl rfl).symm k) = ix2 j k := funext fun a => Fin.ext (by
    match a with
    | ⟨0, _⟩ => exact rhs_row _ _
    | ⟨1, _⟩ => exact (rhs_col _ _).trans hk)
  rw [el, er]

/-- THE STORED VALUE at column j of the block: Σ_k s(0, k) · W(j, k) + b(0, j). -/
theorem pay0_apply (s : FVec Ideal S1x3072 .bf16) (w : FVec Ideal S512x3072 .f32) (b : FVec Ideal S1x512 .f32) (u : Fin 1) (j : Fin 512) :
    k0_pay1 (F := Ideal) s w b (ix2 u j) = (∑ k : Fin 3072, s (ix2 u k) * w (ix2 j k)) + b (ix2 u j) := by
  unfold k0_pay1
  simp only [addf_apply]
  rw [shapeCast_self, shapeCast_self, contract_apply]
  rfl

end Cert.KernelIdeal.KPay0

end
-- ==== Proof.KArr0.lean ====
/-
  The projection kernel's output array after its launch, as one function of the arrays the launch finds.

  The launch has 18 grid points; point t holds the whole activated embedding row, rows 512t … 512t + 511 of W and
  entries 512t … 512t + 511 of the bias row, and writes entries 512t … 512t + 511 of the output row. So the 18 blocks
  tile the 9216 entries, block t of the output is the same function of the inputs as every other block, and after the
  launch entry n of the output row is Σ_k s(0, k) · W(n, k) + b(0, n).
-/
import proofs.«155451_j36112085025538_2_alg».proof.Proof.Gen.KernelIdeal.Frame
import proofs.«155451_j36112085025538_2_alg».proof.Proof.KPay0
import Idealize.ShloMosaic.Lib.Pipeline.Value
import Idealize.ShloMosaic.Lib.ValueIdx

set_option maxRecDepth 16384

noncomputable section

namespace Cert.KernelIdeal.KArr0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- Entry n of the output row from the three input arrays. -/
def entry (s : S1x3072.Idx → EReal) (W : S9216x3072.Idx → EReal) (b : S1x9216.Idx → EReal) (n : Fin 9216) : EReal :=
  (∑ k : Fin 3072, s (ix2 (0 : Fin 1) k) * W (ix2 n k)) + b (ix2 (0 : Fin 1) n)

/-- The output row as one function of the three input arrays. -/
def row (s : S1x3072.Idx → EReal) (W : S9216x3072.Idx → EReal) (b : S1x9216.Idx → EReal) : S1x9216.Idx → EReal :=
  fun i => entry s W b (i 1)

theorem hz2 : (![0, 0] : Fin 2 → Nat) = fun _ => 0 := funext fun a => by fin_cases a <;> rfl

/-- The printed index maps, decided over the 18 points: the embedding row is always block (0, 0); the W block is block
    (t, 0); the bias and output blocks are block (0, t). -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val ∧ t.val < 18 :=
  (by decide +kernel : ∀ t : Fin grid0.N, _)

/-- Every one of the 18 column blocks is some point's. -/
theorem idx_onto : ∀ q : Fin 18, ∃ t : Fin cfg0.N, win0_3.index t = ![0, q.val] :=
  (by decide +kernel : ∀ q : Fin 18, ∃ t : Fin grid0.N, win0_3.index t = ![0, q.val])

/-- Entry (u, k) of the embedding row's block at any point is entry (0, k) of the array. -/
theorem read_s (c : Dev nD) (t : Fin cfg0.N) (u : Fin 1) (k : Fin 3072) :
    iblk0 V c 0 t (ix2 u k) = V c main_v7 (ix2 (0 : Fin 1) k) := by
  obtain ⟨e0, e1, -⟩ := idx_facts t
  show V c main_v7 (((cfg0.win 0).blk t).view.emb (ix2 u k)) = V c main_v7 (ix2 (0 : Fin 1) k)
  refine congrArg (V c main_v7) (funext fun a => Fin.ext ?_)
  match a with
  | ⟨0, _⟩ => show win0_0.index t (0 : Fin 2) * 1 + 1 * u.val = 0; have := u.isLt; omega
  | ⟨1, _⟩ => show win0_0.index t (1 : Fin 2) * 3072 + 1 * k.val = k.val; omega

/-- Entry (j, k) of the W block at point t is entry (512t + j, k) of W. -/
theorem read_w (c : Dev nD) (t : Fin cfg0.N) (j : Fin 512) (k : Fin 3072) (n : Fin 9216) (hn : n.val = t.val * 512 + j.val) :
    iblk0 V c 1 t (ix2 j k) = V c main_arg2 (ix2 n k) := by
  obtain ⟨-, -, e2, e3, -⟩ := idx_facts t
  show V c main_arg2 (((cfg0.win 1).blk t).view.emb (ix2 j k)) = V c main_arg2 (ix2 n k)
  refine congrArg (V c main_arg2) (funext fun a => Fin.ext ?_)
  match a with
  | ⟨0, _⟩ => show win0_1.index t (0 : Fin 2) * 512 + 1 * j.val = n.val; omega
  | ⟨1, _⟩ => show win0_1.index t (1 : Fin 2) * 3072 + 1 * k.val = k.val; omega

/-- Entry (u, j) of the bias block at point t is entry (0, 512t + j) of the bias row. -/
theorem read_b (c : Dev nD) (t : Fin cfg0.N) (u : Fin 1) (j : Fin 512) (n : Fin 9216) (hn : n.val = t.val * 512 + j.val) :
    iblk0 V c 2 t (ix2 u j) = V c main_v8 (ix2 (0 : Fin 1) n) := by
  obtain ⟨-, -, -, -, e4, e5, -⟩ := idx_facts t
  show V c main_v8 (((cfg0.win 2).blk t).view.emb (ix2 u j)) = V c main_v8 (ix2 (0 : Fin 1) n)
  refine congrArg (V c main_v8) (funext fun a => Fin.ext ?_)
  match a with
  | ⟨0, _⟩ => show win0_2.index t (0 : Fin 2) * 1 + 1 * u.val = 0; have := u.isLt; omega
  | ⟨1, _⟩ => show win0_2.index t (1 : Fin 2) * 512 + 1 * j.val = n.val; omega

/-- Entry (u, j) of the output block at point t sits at entry (0, 512t + j) of the output row. -/
theorem emb_out (t : Fin cfg0.N) (u : Fin 1) (j : Fin 512) (n : Fin 9216) (hn : n.val = t.val * 512 + j.val) :
    ((cfg0.win 3).blk t).view.emb (ix2 u j) = (ix2 (0 : Fin 1) n : S1x9216.Idx) := by
  obtain ⟨-, -, -, -, -, -, e6, e7, -⟩ := idx_facts t
  refine funext fun a => Fin.ext ?_
  match a with
  | ⟨0, _⟩ => show win0_3.index t (0 : Fin 2) * 1 + 1 * u.val = 0; have := u.isLt; omega
  | ⟨1, _⟩ => show win0_3.index t (1 : Fin 2) * 512 + 1 * j.val = n.val; omega

/-- WHAT POINT t WRITES BACK is block t of the one output-row function of the arrays as the launch finds them. -/
theorem flushed_eq (c : Dev nD) (t : Fin cfg0.N) :
    (dat0 V c).flushed 3 t = ((cfg0.win 3).blk t).view.read (Elt Ideal) (row (V c main_v7) (V c main_arg2) (V c main_v8)) := by
  show (cfg0.win 3).cut (grid0.coords t) ((dat0 V c).after 3 t) = _
  rw [after0_3]
  unfold out0_3
  rw [View.canon_unit_zero hz2]
  simp only [View.ld_unit_zero (S := S1x3072) hz2, View.ld_unit_zero (S := S512x3072) hz2, View.ld_unit_zero (S := S1x512) hz2]
  funext y
  obtain ⟨u, j, rfl⟩ : ∃ (u : Fin 1) (j : Fin 512), y = ix2 u j := ⟨y 0, y 1, eq_ix2 y⟩
  have ht : t.val < 18 := (idx_facts t).2.2.2.2.2.2.2.2
  have hj : j.val < 512 := j.isLt
  let n : Fin 9216 := ⟨t.val * 512 + j.val, by omega⟩
  show k0_pay1 (iblk0 V c 0 t) (iblk0 V c 1 t) (iblk0 V c 2 t) (ix2 u j)
      = row (V c main_v7) (V c main_arg2) (V c main_v8) (((cfg0.win 3).blk t).view.emb (ix2 u j))
  rw [emb_out t u j n rfl]
  refine (Cert.KernelIdeal.KPay0.pay0_apply (iblk0 V c 0 t) (iblk0 V c 1 t) (iblk0 V c 2 t) u j).trans ?_
  simp only [read_s V c t, read_w V c t _ _ n rfl, read_b V c t u j n rfl]
  rfl

/-- An entry of the output row is in point t's block iff each coordinate is in the block's range. -/
theorem mem_blk (t : Fin cfg0.N) (i : S1x9216.Idx) :
    i ∈ ((cfg0.win 3).blk t).view.set ↔ ∀ a : Fin 2, win0_3.index t a * S1x512.size a ≤ (i a).val ∧ (i a).val < win0_3.index t a * S1x512.size a + S1x512.size a := by
  show i ∈ ((View.whole main_v9).slice (win0_3.rect t)).set ↔ _
  rw [View.set_slice_whole, Rect.mem_set_unit]
  exact Iff.rfl

/-- The 18 blocks cover the output row: entry n is in the block of point n / 512. -/
theorem cover (i : S1x9216.Idx) : ∃ t : Fin cfg0.N, (cfg0.win 3).flush t = true ∧ i ∈ ((cfg0.win 3).blk t).view.set := by
  have hi0 : (i 0).val < 1 := (i 0).isLt
  have hi1 : (i 1).val < 9216 := (i 1).isLt
  obtain ⟨t, ht⟩ := idx_onto ⟨(i 1).val / 512, by omega⟩
  have q0 : win0_3.index t (0 : Fin 2) = 0 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 512 ≤ (i 1).val ∧ (i 1).val < win0_3.index t (1 : Fin 2) * 512 + 512; omega

/-- THE OUTPUT ROW after the launch: the one function of the arrays the launch found. -/
theorem final (c : Dev nD) :
    (dat0 V c).arrAt 3 cfg0.N = row (V c main_v7) (V c main_arg2) (V c main_v8) :=
  (dat0 V c).arrAt_eq_of_cover 3 _ (fun t _ => flushed_eq V c t) cover

end Cert.KernelIdeal.KArr0

end
-- ==== Proof.Spec.lean ====
/-
  The mathematics both programs compute, stated once over extended reals and coordinates.

  Inputs: x (1 × 8192 × 3072), emb (1 × 3072), W (9216 × 3072), b (9216).
  • The activation of one entry v is v · (1 / (1 + e^(−v))).
  • The projection e has 9216 entries: e(n) = Σ_k act(emb(0, k)) · W(n, k) + b(n).
  • e is read as 3072 consecutive triples: position q owns e(3q) (the shift), e(3q + 1) (the scale) and e(3q + 2)
    (the gate).
  • A row f of 3072 numbers is normalised: mean = (Σ_k f(k)) / 3072, centred value f(q) − mean, variance
    (Σ_k (f(k) − mean)²) / 3072, and the normalised value (f(q) − mean) · rsqrt(variance + ε).
  • The first result at (0, r, q) is normalised(x(0, r, ·))(q) · e(3q + 1) + e(3q); the second at (0, q) is e(3q + 2).
  Every operation is the exact one on the extended reals; the two float literals 3072 and ε are kept as the words the
  programs print, the same on both sides.
-/
import Idealize.ShloMosaic.PureOps.Ideal
import Idealize.ShloMosaic.Lib.ValueIdx

noncomputable section

namespace Cert.Spec

open Idealize.ShloMosaic Idealize.ShloMosaic.ValueIdx

/-- The activation v · (1 / (1 + e^(−v))) of one entry. -/
def act (v : EReal) : EReal :=
  v * Ideal.div (Ideal.ofBits .f32 0x3F800000#32) (Ideal.ofBits .f32 0x3F800000#32 + Ideal.exp (-v))

/-- Entry n of the projection: Σ_k act(emb(0, k)) · W(n, k) + b(n). -/
def proj (emb : (⟨2, ![1, 3072]⟩ : Shape).Idx → EReal) (W : (⟨2, ![9216, 3072]⟩ : Shape).Idx → EReal)
    (b : (⟨1, ![9216]⟩ : Shape).Idx → EReal) (n : Fin 9216) : EReal :=
  (∑ k : Fin 3072, act (emb (ix2 (0 : Fin 1) k)) * W (ix2 n k)) + b (ix1 n)

/-- Position 3q + o of the projection, for the offset o < 3 inside the triple that position q owns. -/
def triple (o : ℕ) (ho : o < 3) (q : Fin 3072) : Fin 9216 := ⟨3 * q.val + o, by have := q.isLt; omega⟩

/-- The mean of a row: its sum divided by the literal 3072. -/
def mean (f : Fin 3072 → EReal) : EReal := Ideal.div (∑ k : Fin 3072, f k) (Ideal.ofBits .f32 0x45400000#32)

/-- A row's entry less the row's mean. -/
def centred (f : Fin 3072 → EReal) (q : Fin 3072) : EReal := f q - mean f

/-- The normalised entry: the centred entry times the reciprocal square root of the variance plus ε. -/
def normed (f : Fin 3072 → EReal) (q : Fin 3072) : EReal :=
  centred f q * Ideal.rsqrt (Ideal.div (∑ k : Fin 3072, centred f k * centred f k) (Ideal.ofBits .f32 0x45400000#32)
    + Ideal.ofBits .f32 0x358637BD#32)

/-- A normalised row entry modulated by a scale and a shift. -/
def modulated (f : Fin 3072 → EReal) (q : Fin 3072) (scale shift : EReal) : EReal := normed f q * scale + shift

/-- The first result: the rows of x normalised, scaled by e(3q + 1) and shifted by e(3q). -/
def out (x : (⟨3, ![1, 8192, 3072]⟩ : Shape).Idx → EReal) (emb : (⟨2, ![1, 3072]⟩ : Shape).Idx → EReal)
    (W : (⟨2, ![9216, 3072]⟩ : Shape).Idx → EReal) (b : (⟨1, ![9216]⟩ : Shape).Idx → EReal) :
    (⟨3, ![1, 8192, 3072]⟩ : Shape).Idx → EReal := fun i =>
  modulated (fun k => x (ix3 (0 : Fin 1) (i 1) k)) (i 2) (proj emb W b (triple 1 (by decide) (i 2))) (proj emb W b (triple 0 (by decide) (i 2)))

/-- The second result: e(3q + 2). -/
def gate (emb : (⟨2, ![1, 3072]⟩ : Shape).Idx → EReal) (W : (⟨2, ![9216, 3072]⟩ : Shape).Idx → EReal)
    (b : (⟨1, ![9216]⟩ : Shape).Idx → EReal) : (⟨2, ![1, 3072]⟩ : Shape).Idx → EReal := fun i =>
  proj emb W b (triple 2 (by decide) (i 1))

end Cert.Spec

end
-- ==== Proof.LibKeepdims.lean ====
/-
  Layout steps and single-axis reductions of small-rank arrays read at an index given by coordinates — a general
  module: every lemma is general in the extents, and the layout lemmas in the element type.
  Layout:
  • `shapeCast_a_a1_apply`: a vector recast as a column, `[a] → [a, 1]`, at `(i, u)` is the vector at `i`;
  • `broadcastTo_a1_ab_apply`: a column broadcast across the lanes, `[a, 1] → [a, b]`, at `(i, j)` is the column at `(i, 0)`;
  • `broadcastTo_11_ab_apply`: a one-entry matrix broadcast to `[a, b]` reads its one entry everywhere;
  • `shapeCast_ab_a1b_apply`: a matrix given a middle unit axis, `[a, b] → [a, 1, b]`, at `(i, u, k)` is the matrix at `(i, k)`;
  • `broadcastTo_a1c_abc_apply`: `[a, 1, c] → [a, b, c]` at `(i, j, k)` is the operand at `(i, 0, k)`.
  Reductions over one axis, at the exact values: the source index over a result index with coordinate `k` on the reduced
  axis (`lift_last_ab`, `lift_last_abc`, `lift_mid_abc`), and with them
  • `multiReduction_add_last_ab`, `multiReduction_add_last_abc`, `multiReduction_add_mid_abc`: an add reduction read as the
    sum over the reduced coordinate;
  • `multiReduction_max_last_abc`: a maximum reduction along the last axis read as the fold of `max` from the accumulator.
-/
import Idealize.ShloMosaic.Lib.Pipeline.Value
import Idealize.ShloMosaic.Lib.ValueIdx
import Idealize.ShloMosaic.Lib.ValueLayout
import Idealize.ShloMosaic.PureOps.Reduce
import Idealize.ShloMosaic.PureOps.Ideal.Laws

namespace Cert.LibKeepdims

open Idealize.ShloMosaic Idealize.ShloMosaic.ValueIdx

section Layout
variable {α : Type}

/-- A vector recast as a column reads, at `(i, u)`, its entry `i`: the unit axis contributes nothing to the row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast across the lanes reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- A one-entry matrix broadcast to `[a, b]` reads its one entry at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else j.val
    rw [if_pos rfl]

/-- A matrix given a middle unit axis reads, at `(i, u, k)`, the matrix at `(i, k)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (k : Fin b) :
    shapeCast ⟨3, ![a, 1, b]⟩ x h (ix3 i u k) = x (ix2 i k) :=
  shapeCast_apply x h _ _ (by
    have hu : u.val = 0 := by omega
    rw [Shape.rowMajor_val_three, Shape.rowMajor_val_two]
    show i.val * b + k.val = (i.val * 1 + u.val) * b + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

end Layout

section Lift

/-- Reducing `[a, b]` over its last axis: over the result index `i`, coordinate `k` on the reduced axis is `(i, k)`. -/
theorem lift_last_ab {a b : ℕ} (h : (⟨2, ![a, b]⟩ : Shape).Reduces [1] ⟨1, ![a]⟩) (i : Fin a) (k : Fin b) :
    h.lift (ix1 i) k = ix2 i k := by
  funext ax
  apply Fin.ext
  match ax with
  | ⟨0, _⟩ => rfl
  | ⟨1, _⟩ => rfl

/-- Reducing `[a, b, c]` over its last axis: over `(i, j)`, coordinate `k` on the reduced axis is `(i, j, k)`. -/
theorem lift_last_abc {a b c : ℕ} (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Reducing `[a, b, c]` over its middle axis: over `(i, k)`, coordinate `j` on the reduced axis is `(i, j, k)`. -/
theorem lift_mid_abc {a b c : ℕ} (h : (⟨3, ![a, b, c]⟩ : Shape).Reduces [1] ⟨2, ![a, c]⟩) (i : Fin a) (k : Fin c) (j : Fin b) :
    h.lift (ix2 i k) j = ix3 i j k := by
  funext ax
  apply Fin.ext
  match ax with
  | ⟨0, _⟩ => rfl
  | ⟨1, _⟩ => rfl
  | ⟨2, _⟩ => rfl

end Lift

section Reductions
variable {φ : FTy}

/-- An add reduction of `[a, b]` along its last axis, at the exact values, read at `i`: the row's sum. -/
theorem multiReduction_add_last_ab {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last_ab h i k))

/-- An add reduction of `[a, b, c]` along its last axis, at the exact values, read at `(i, j)`. -/
theorem multiReduction_add_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last_abc h i j k))

/-- An add reduction of `[a, b, c]` along its middle axis, at the exact values, read at `(i, k)`. -/
theorem multiReduction_add_mid_abc {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_mid_abc h i k j))

/-- A maximum reduction of `[a, b, c]` along its last axis, at the exact values, read at `(i, j)`: the fold of `max` from
    the accumulator's value over the row. -/
theorem multiReduction_max_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) :=
  (Ideal.multiReduction_maximumf_single src acc h hφ hacc (ix2 i j)).trans
    (congrArg (fun f => (Finset.univ : Finset (Fin c)).fold max (Ideal.ofBits φ acc) f)
      (funext fun k => congrArg src (lift_last_abc h i j k)))

end Reductions

end Cert.LibKeepdims
-- ==== Proof.LibCubeLayout.lean ====
/-
  Two matrices laid out as faces of a cube, read at an index given by coordinates.
  An outer combination `f (x i j) (y j k)` of an `[a, b]` matrix `x` and a `[b, c]` matrix `y` is computed on vectors by
  giving `x` a trailing unit axis (`[a, b] → [a, b, 1]`) and `y` a leading one (`[b, c] → [1, b, c]`), broadcasting both
  to `[a, b, c]`, combining pointwise, and reducing over the middle axis. The lemmas here read each layout step at
  `(i, j, k)`, general in the extents and the element type:
  • `shapeCast_ab_ab1_apply`: the cast `[a, b] → [a, b, 1]` at `(i, j, u)` is the matrix at `(i, j)`;
  • `broadcastTo_ab1_abc_apply`: `[a, b, 1] → [a, b, c]` at `(i, j, k)` is the operand at `(i, j, 0)`;
  • `broadcastTo_1bc_abc_apply`: `[1, b, c] → [a, b, c]` at `(i, j, k)` is the operand at `(0, j, k)`;
  • `lift_mid_abc`: reducing `[a, b, c]` over its middle axis, the source index over the result index `(i, k)` with
    coordinate `j` on the reduced axis is `(i, j, k)`.
  (The leading-unit cast `[b, c] → [1, b, c]` is the library's `shapeCast_ab_1ab_apply`.)
-/
import Idealize.ShloMosaic.Lib.Pipeline.Value
import Idealize.ShloMosaic.Lib.ValueIdx
import Idealize.ShloMosaic.PureOps.Reduce

namespace Cert.LibCubeLayout

open Idealize.ShloMosaic Idealize.ShloMosaic.ValueIdx

variable {α : Type}

/-- An `[a, b]` array cast to `[a, b, 1]` reads, at `(i, j, u)`, the operand at `(i, j)`: the two indices have the same
    row-major position, the unit axis contributing nothing. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

/-- Reducing `[a, b, c]` over its middle axis: the source index over the result index `(i, k)` whose coordinate on the
    reduced axis is `j` is `(i, j, k)`. -/
theorem lift_mid_abc {a b c : ℕ} (h : (⟨3, ![a, b, c]⟩ : Shape).Reduces [1] ⟨2, ![a, c]⟩) (i : Fin a) (k : Fin c)
    (j : Fin b) : h.lift (ix2 i k) j = ix3 i j k := by
  funext ax
  apply Fin.ext
  match ax with
  | ⟨0, _⟩ => rfl
  | ⟨1, _⟩ => rfl
  | ⟨2, _⟩ => rfl

end Cert.LibCubeLayout
-- ==== Proof.KPay1.lean ====
/-
  What the normalisation kernel stores, entry by entry.

  The body holds a block of 256 rows of x, the scale row and the shift row. For each row it sums the 3072 entries,
  divides by 3072, subtracts that mean, sums the squares of the centred entries, divides by 3072, adds ε, takes the
  reciprocal square root, multiplies the centred entry by it, then by the scale of the column, and adds the shift of
  the column. Read at row p and column q this is the modulated, normalised entry of the block's row p.
-/
import proofs.«155451_j36112085025538_2_alg».proof.Proof.Gen.KernelIdeal.Skeleton
import proofs.«155451_j36112085025538_2_alg».proof.Proof.Spec
import proofs.«155451_j36112085025538_2_alg».proof.Proof.LibKeepdims
import proofs.«155451_j36112085025538_2_alg».proof.Proof.LibCubeLayout
import Idealize.ShloMosaic.Lib.Pipeline.Value
import Idealize.ShloMosaic.Lib.ValueIdx
import Idealize.ShloMosaic.PureOps.Ideal.Laws

noncomputable section

namespace Cert.KernelIdeal.KPay1

open Cert.KernelIdeal Cert.KernelIdeal.Gen
open Idealize.ShloMosaic Idealize.ShloMosaic.ValueIdx

/-- The sum of a block's row, as the body's lane reduction computes it. -/
theorem rowSum_apply (src : FVec Ideal S1x256x3072 .f32) (hφ : FKind.Formats .f32)
    (hacc : (0x00000000#32 : BitVec 32) = 0x00000000#32) (u : Fin 1) (p : Fin 256) :
    multiReduction .add [2] S1x256 src 0x00000000#32 reduces_S1x256x3072_S1x256 hφ hacc (ix2 u p)
      = ∑ k : Fin 3072, src (ix3 u p k) :=
  Cert.LibKeepdims.multiReduction_add_last_abc src _ reduces_S1x256x3072_S1x256 hφ hacc u p

/-- A per-row quantity given a trailing unit axis and broadcast along the row, read at (u, p, q): the quantity of row p. -/
theorem rowBroadcast_apply (v : FVec Ideal S1x256 .f32) (u : Fin 1) (p : Fin 256) (q : Fin 3072) :
    broadcastTo S1x256x3072 (shapeCast S1x256x1 v shapeCasts_S1x256_S1x256x1) broadcasts_S1x256x1_S1x256x3072 (ix3 u p q)
      = v (ix2 u p) :=
  (Cert.LibCubeLayout.broadcastTo_ab1_abc_apply _ broadcasts_S1x256x1_S1x256x3072 u p q).trans
    (Cert.LibCubeLayout.shapeCast_ab_ab1_apply v shapeCasts_S1x256_S1x256x1 u p (0 : Fin 1))

/-- A per-column row given a middle unit axis and broadcast down the rows, read at (u, p, q): the row's entry q. -/
theorem colBroadcast_apply (v : FVec Ideal S1x3072 .f32) (u : Fin 1) (p : Fin 256) (q : Fin 3072) :
    broadcastTo S1x256x3072 (shapeCast S1x1x3072 (shapeCast S1x3072 v shapeCasts_S1x3072_S1x3072) shapeCasts_S1x3072_S1x1x3072)
        broadcasts_S1x1x3072_S1x256x3072 (ix3 u p q)
      = v (ix2 u q) := by
  rw [shapeCast_self]
  exact (Cert.LibKeepdims.broadcastTo_a1c_abc_apply _ broadcasts_S1x1x3072_S1x256x3072 u p q).trans
    (Cert.LibKeepdims.shapeCast_ab_a1b_apply v shapeCasts_S1x3072_S1x1x3072 u (0 : Fin 1) q)

/-- THE STORED VALUE at row p, column q of the block: the block's row p normalised at q, times the scale of column q,
    plus the shift of column q. -/
theorem pay1_apply (x0 : FVec Ideal S1x256x3072 .f32) (sc sh : FVec Ideal S1x3072 .f32) (u : Fin 1) (p : Fin 256) (q : Fin 3072) :
    k1_pay1 (F := Ideal) x0 sc sh (ix3 u p q)
      = Cert.Spec.modulated (fun k => x0 (ix3 u p k)) q (sc (ix2 u q)) (sh (ix2 u q)) := by
  unfold k1_pay1
  simp only [addf_apply, mulf_apply, subf_apply, divf_apply, broadcast_apply, rsqrt, colBroadcast_apply,
    Cert.LibCubeLayout.broadcastTo_ab1_abc_apply, Cert.LibCubeLayout.shapeCast_ab_ab1_apply]
  rw [rowSum_apply x0, rowSum_apply]
  simp only [mulf_apply, subf_apply, divf_apply, broadcast_apply,
    Cert.LibCubeLayout.broadcastTo_ab1_abc_apply, Cert.LibCubeLayout.shapeCast_ab_ab1_apply]
  rw [rowSum_apply x0]
  simp only [Cert.Spec.modulated, Cert.Spec.normed, Cert.Spec.centred, Cert.Spec.mean]
  rfl

end Cert.KernelIdeal.KPay1

end
-- ==== Proof.KArr1.lean ====
/-
  The normalisation kernel's output array after its launch, as one function of the arrays the launch finds.

  The launch has 32 grid points; point t holds rows 256t … 256t + 255 of x, the whole shift row and the whole scale row,
  and writes rows 256t … 256t + 255 of the output. A row's normalisation uses that row only, so the stored block is a
  block of one function of the whole arrays: entry (0, r, q) is row r of x normalised at q, times scale(0, q), plus
  shift(0, q). The 32 blocks tile the 8192 rows.
-/
import proofs.«155451_j36112085025538_2_alg».proof.Proof.Gen.KernelIdeal.Frame
import proofs.«155451_j36112085025538_2_alg».proof.Proof.KPay1
import Idealize.ShloMosaic.Lib.Pipeline.Value
import Idealize.ShloMosaic.Lib.ValueIdx

set_option maxRecDepth 16384

noncomputable section

namespace Cert.KernelIdeal.KArr1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- Entry (0, r, q) of the output from x, the shift row and the scale row. -/
def entry (x : S1x8192x3072.Idx → EReal) (shift scale : S1x3072.Idx → EReal) (r : Fin 8192) (q : Fin 3072) : EReal :=
  Cert.Spec.modulated (fun k => x (ix3 (0 : Fin 1) r k)) q (scale (ix2 (0 : Fin 1) q)) (shift (ix2 (0 : Fin 1) q))

/-- The output as one function of the three input arrays. -/
def arr (x : S1x8192x3072.Idx → EReal) (shift scale : S1x3072.Idx → EReal) : S1x8192x3072.Idx → EReal :=
  fun i => entry x shift scale (i 1) (i 2)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 32 points: the x block and the output block are block (0, t, 0); the shift
    and scale rows are always block (0, 0). -/
theorem idx_facts : ∀ t : Fin cfg1.N, win1_0.index t (0 : Fin 3) = 0 ∧ win1_0.index t (1 : Fin 3) = t.val ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = 0 ∧ win1_3.index t (1 : Fin 3) = t.val ∧ win1_3.index t (2 : Fin 3) = 0 ∧ t.val < 32 :=
  (by decide +kernel : ∀ t : Fin grid1.N, _)

/-- Every one of the 32 row blocks is some point's. -/
theorem idx_onto : ∀ q : Fin 32, ∃ t : Fin cfg1.N, win1_3.index t = ![0, q.val, 0] :=
  (by decide +kernel : ∀ q : Fin 32, ∃ t : Fin grid1.N, win1_3.index t = ![0, q.val, 0])

/-- Entry (u, p, k) of the x block at point t is entry (0, 256t + p, k) of x. -/
theorem read_x (c : Dev nD) (t : Fin cfg1.N) (u : Fin 1) (p : Fin 256) (k : Fin 3072) (r : Fin 8192) (hr : r.val = t.val * 256 + p.val) :
    iblk1 V c 0 t (ix3 u p k) = V c main_arg0 (ix3 (0 : Fin 1) r k) := by
  obtain ⟨e0, e1, e2, -⟩ := idx_facts t
  show V c main_arg0 (((cfg1.win 0).blk t).view.emb (ix3 u p k)) = V c main_arg0 (ix3 (0 : Fin 1) r k)
  refine congrArg (V c main_arg0) (funext fun a => Fin.ext ?_)
  match a with
  | ⟨0, _⟩ => show win1_0.index t (0 : Fin 3) * 1 + 1 * u.val = 0; have := u.isLt; omega
  | ⟨1, _⟩ => show win1_0.index t (1 : Fin 3) * 256 + 1 * p.val = r.val; omega
  | ⟨2, _⟩ => show win1_0.index t (2 : Fin 3) * 3072 + 1 * k.val = k.val; omega

/-- Entry (u, q) of the shift row's block at any point is entry (0, q) of the shift row. -/
theorem read_shift (c : Dev nD) (t : Fin cfg1.N) (u : Fin 1) (q : Fin 3072) :
    iblk1 V c 1 t (ix2 u q) = V c main_v12 (ix2 (0 : Fin 1) q) := by
  obtain ⟨-, -, -, e3, e4, -⟩ := idx_facts t
  show V c main_v12 (((cfg1.win 1).blk t).view.emb (ix2 u q)) = V c main_v12 (ix2 (0 : Fin 1) q)
  refine congrArg (V c main_v12) (funext fun a => Fin.ext ?_)
  match a with
  | ⟨0, _⟩ => show win1_1.index t (0 : Fin 2) * 1 + 1 * u.val = 0; have := u.isLt; omega
  | ⟨1, _⟩ => show win1_1.index t (1 : Fin 2) * 3072 + 1 * q.val = q.val; omega

/-- Entry (u, q) of the scale row's block at any point is entry (0, q) of the scale row. -/
theorem read_scale (c : Dev nD) (t : Fin cfg1.N) (u : Fin 1) (q : Fin 3072) :
    iblk1 V c 2 t (ix2 u q) = V c main_v14 (ix2 (0 : Fin 1) q) := by
  obtain ⟨-, -, -, -, -, e5, e6, -⟩ := idx_facts t
  show V c main_v14 (((cfg1.win 2).blk t).view.emb (ix2 u q)) = V c main_v14 (ix2 (0 : Fin 1) q)
  refine congrArg (V c main_v14) (funext fun a => Fin.ext ?_)
  match a with
  | ⟨0, _⟩ => show win1_2.index t (0 : Fin 2) * 1 + 1 * u.val = 0; have := u.isLt; omega
  | ⟨1, _⟩ => show win1_2.index t (1 : Fin 2) * 3072 + 1 * q.val = q.val; omega

/-- Entry (u, p, q) of the output block at point t sits at entry (0, 256t + p, q) of the output. -/
theorem emb_out (t : Fin cfg1.N) (u : Fin 1) (p : Fin 256) (q : Fin 3072) (r : Fin 8192) (hr : r.val = t.val * 256 + p.val) :
    ((cfg1.win 3).blk t).view.emb (ix3 u p q) = (ix3 (0 : Fin 1) r q : S1x8192x3072.Idx) := by
  obtain ⟨-, -, -, -, -, -, -, e7, e8, e9, -⟩ := idx_facts t
  refine funext fun a => Fin.ext ?_
  match a with
  | ⟨0, _⟩ => show win1_3.index t (0 : Fin 3) * 1 + 1 * u.val = 0; have := u.isLt; omega
  | ⟨1, _⟩ => show win1_3.index t (1 : Fin 3) * 256 + 1 * p.val = r.val; omega
  | ⟨2, _⟩ => show win1_3.index t (2 : Fin 3) * 3072 + 1 * q.val = q.val; omega

/-- WHAT POINT t WRITES BACK is block t of the one output function of the arrays as the launch finds them. -/
theorem flushed_eq (c : Dev nD) (t : Fin cfg1.N) :
    (dat1 V c).flushed 3 t = ((cfg1.win 3).blk t).view.read (Elt Ideal) (arr (V c main_arg0) (V c main_v12) (V c main_v14)) := by
  show (cfg1.win 3).cut (grid1.coords t) ((dat1 V c).after 3 t) = _
  rw [after1_3]
  unfold out1_3
  rw [View.canon_unit_zero hz3]
  simp only [View.ld_unit_zero (S := S1x256x3072) hz3, View.ld_unit_zero (S := S1x3072) hz2]
  funext y
  obtain ⟨u, p, q, rfl⟩ : ∃ (u : Fin 1) (p : Fin 256) (q : Fin 3072), y = ix3 u p q := ⟨y 0, y 1, y 2, eq_ix3 y⟩
  have ht : t.val < 32 := (idx_facts t).2.2.2.2.2.2.2.2.2.2
  have hp : p.val < 256 := p.isLt
  let r : Fin 8192 := ⟨t.val * 256 + p.val, by omega⟩
  show k1_pay1 (iblk1 V c 0 t) (iblk1 V c 2 t) (iblk1 V c 1 t) (ix3 u p q)
      = arr (V c main_arg0) (V c main_v12) (V c main_v14) (((cfg1.win 3).blk t).view.emb (ix3 u p q))
  rw [emb_out t u p q r rfl]
  refine (Cert.KernelIdeal.KPay1.pay1_apply (iblk1 V c 0 t) (iblk1 V c 2 t) (iblk1 V c 1 t) u p q).trans ?_
  simp only [read_x V c t u p _ r rfl, read_shift V c t, read_scale V c t]
  rfl

/-- An entry of the output is in point t's block iff each coordinate is in the block's range. -/
theorem mem_blk (t : Fin cfg1.N) (i : S1x8192x3072.Idx) :
    i ∈ ((cfg1.win 3).blk t).view.set ↔ ∀ a : Fin 3, win1_3.index t a * S1x256x3072.size a ≤ (i a).val ∧ (i a).val < win1_3.index t a * S1x256x3072.size a + S1x256x3072.size a := by
  show i ∈ ((View.whole main_v17).slice (win1_3.rect t)).set ↔ _
  rw [View.set_slice_whole, Rect.mem_set_unit]
  exact Iff.rfl

/-- The 32 blocks cover the output: row r is in the block of point r / 256. -/
theorem cover (i : S1x8192x3072.Idx) : ∃ t : Fin cfg1.N, (cfg1.win 3).flush t = true ∧ i ∈ ((cfg1.win 3).blk t).view.set := by
  have hi0 : (i 0).val < 1 := (i 0).isLt
  have hi1 : (i 1).val < 8192 := (i 1).isLt
  have hi2 : (i 2).val < 3072 := (i 2).isLt
  obtain ⟨t, ht⟩ := idx_onto ⟨(i 1).val / 256, by omega⟩
  have q0 : win1_3.index t (0 : Fin 3) = 0 := congrFun ht 0
  have q1 : win1_3.index t (1 : Fin 3) = (i 1).val / 256 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 3072 ≤ (i 2).val ∧ (i 2).val < win1_3.index t (2 : Fin 3) * 3072 + 3072; omega

/-- THE OUTPUT after the launch: the one function of the arrays the launch found. -/
theorem final (c : Dev nD) :
    (dat1 V c).arrAt 3 cfg1.N = arr (V c main_arg0) (V c main_v12) (V c main_v14) :=
  (dat1 V c).arrAt_eq_of_cover 3 _ (fun t _ => flushed_eq V c t) cover

end Cert.KernelIdeal.KArr1

end
-- ==== Proof.KHost.lean ====
/-
  The two result buffers of the idealized kernel program, read out of the chain of buffer contents.

  Before the first launch the host computes the activated embedding row (entry by entry v · (1 / (1 + e^(−v))), then a
  change of float format, which is the identity on extended reals) and recasts the bias vector as a row. After the first
  launch it recasts the 9216-entry output row as 3072 triples and slices out the three members: the shift row (member 0),
  the scale row (member 1) and the gate row (member 2). The second launch reads x, the shift row and the scale row.
  So the first result is the normalisation kernel's output function of x and two members of the projection row, and the
  second result is the third member.
-/
import proofs.«155451_j36112085025538_2_alg».proof.Proof.Gen.KernelIdeal.Frame
import proofs.«155451_j36112085025538_2_alg».proof.Proof.KArr0
import proofs.«155451_j36112085025538_2_alg».proof.Proof.KArr1
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- The activated embedding row as the host computes it before the first launch. -/
def actRow (emb : (⟨S1x3072, .f32⟩ : BufTy).Contents (Elt Ideal)) : (⟨S1x3072, .bf16⟩ : BufTy).Contents (Elt Ideal) :=
  truncf .bf16 (mulf emb (Host.divf (F := Ideal) (broadcastInDim S1x3072 ![] bcast_S_S1x3072 (constant (F := Ideal) S_ .f32 0x3F800000#32))
    (addf (broadcastInDim S1x3072 ![] bcast_S_S1x3072 (constant (F := Ideal) S_ .f32 0x3F800000#32))
      (Host.exp (F := Ideal) (Host.negf (F := Ideal) emb))))) bitsLt_bf16_f32

/-- Member o of the triples of a 9216-entry row, as the host slices it out after the first launch. -/
def member0 (e : (⟨S1x9216, .f32⟩ : BufTy).Contents (Elt Ideal)) : (⟨S1x3072, .f32⟩ : BufTy).Contents (Elt Ideal) :=
  shapeCast S1x3072 (extractStridedSlice S1x3072x1 ![0, 0, 0] (shapeCast S1x3072x3 e shapeCasts_S1x9216_S1x3072x3) slices_S1x3072x3_S1x3072x1_0_0_0) shapeCasts_S1x3072x1_S1x3072
def member1 (e : (⟨S1x9216, .f32⟩ : BufTy).Contents (Elt Ideal)) : (⟨S1x3072, .f32⟩ : BufTy).Contents (Elt Ideal) :=
  shapeCast S1x3072 (extractStridedSlice S1x3072x1 ![0, 0, 1] (shapeCast S1x3072x3 e shapeCasts_S1x9216_S1x3072x3) slices_S1x3072x3_S1x3072x1_0_0_1) shapeCasts_S1x3072x1_S1x3072
def member2 (e : (⟨S1x9216, .f32⟩ : BufTy).Contents (Elt Ideal)) : (⟨S1x3072, .f32⟩ : BufTy).Contents (Elt Ideal) :=
  shapeCast S1x3072 (extractStridedSlice S1x3072x1 ![0, 0, 2] (shapeCast S1x3072x3 e shapeCasts_S1x9216_S1x3072x3) slices_S1x3072x3_S1x3072x1_0_0_2) shapeCasts_S1x3072x1_S1x3072

/-! ## Before the first launch -/

theorem W1_v7 (c : Dev nD) : W1 m ρ c (Proc.devRef .tc main_v7) = actRow (m ((c : Thread nD τ).loc main_arg1)) := by
  show StableHlo.after hostOps0 (W0 m ρ c) (Proc.devRef .tc main_v7) = _
  after_results
  rfl

theorem W1_v8 (c : Dev nD) : W1 m ρ c (Proc.devRef .tc main_v8)
    = (shapeCast S1x9216 (m ((c : Thread nD τ).loc main_arg3)) shapeCasts_S9216_S1x9216 : (⟨S1x9216, .f32⟩ : BufTy).Contents (Elt Ideal)) := by
  show StableHlo.after hostOps0 (W0 m ρ c) (Proc.devRef .tc main_v8) = _
  after_results
  rfl

theorem W1_arg2 (c : Dev nD) : W1 m ρ c (Proc.devRef .tc main_arg2) = m ((c : Thread nD τ).loc main_arg2) := by
  show StableHlo.after hostOps0 (W0 m ρ c) (Proc.devRef .tc main_arg2) = _
  after_results

/-- The projection row after the first launch. -/
theorem W2_v9 (c : Dev nD) : W2 m ρ c (Proc.devRef .tc main_v9)
    = Cert.KernelIdeal.KArr0.row (actRow (m ((c : Thread nD τ).loc main_arg1))) (m ((c : Thread nD τ).loc main_arg2))
        (shapeCast S1x9216 (m ((c : Thread nD τ).loc main_arg3)) shapeCasts_S9216_S1x9216) := by
  refine (W2_arr m ρ c 3).trans ((Cert.KernelIdeal.KArr0.final (V1 m ρ) c).trans ?_)
  show Cert.KernelIdeal.KArr0.row (W1 m ρ c (Proc.devRef .tc main_v7)) (W1 m ρ c (Proc.devRef .tc main_arg2)) (W1 m ρ c (Proc.devRef .tc main_v8)) = _
  rw [W1_v7, W1_v8, W1_arg2]

/-! ## Between the launches -/

theorem W3_v12 (c : Dev nD) : W3 m ρ c (Proc.devRef .tc main_v12) = member0 (W2 m ρ c (Proc.devRef .tc main_v9)) := by
  show StableHlo.after hostOps1 (W2 m ρ c) (Proc.devRef .tc main_v12) = _
  after_results
  rfl

theorem W3_v14 (c : Dev nD) : W3 m ρ c (Proc.devRef .tc main_v14) = member1 (W2 m ρ c (Proc.devRef .tc main_v9)) := by
  show StableHlo.after hostOps1 (W2 m ρ c) (Proc.devRef .tc main_v14) = _
  after_results
  rfl

theorem W3_v16 (c : Dev nD) : W3 m ρ c (Proc.devRef .tc main_v16) = member2 (W2 m ρ c (Proc.devRef .tc main_v9)) := by
  show StableHlo.after hostOps1 (W2 m ρ c) (Proc.devRef .tc main_v16) = _
  after_results
  rfl

/-- x is still as launched when the second launch reads it. -/
theorem W3_arg0 (c : Dev nD) : W3 m ρ c (Proc.devRef .tc main_arg0) = m ((c : Thread nD τ).loc main_arg0) :=
  (((W4_arr m ρ c 0).trans (((dat1 (V3 m ρ) c).arrAt_in 0 rfl _).trans (A_eq1 (V3 m ρ) c 0))).symm).trans (W4_main_arg0 m ρ c)

/-! ## After the second launch -/

/-- The first result buffer. -/
theorem W4_v17 (c : Dev nD) : W4 m ρ c (Proc.devRef .tc main_v17)
    = Cert.KernelIdeal.KArr1.arr (m ((c : Thread nD τ).loc main_arg0)) (member0 (W2 m ρ c (Proc.devRef .tc main_v9))) (member1 (W2 m ρ c (Proc.devRef .tc main_v9))) := by
  refine (W4_arr m ρ c 3).trans ((Cert.KernelIdeal.KArr1.final (V3 m ρ) c).trans ?_)
  show Cert.KernelIdeal.KArr1.arr (W3 m ρ c (Proc.devRef .tc main_arg0)) (W3 m ρ c (Proc.devRef .tc main_v12)) (W3 m ρ c (Proc.devRef .tc main_v14)) = _
  rw [W3_arg0, W3_v12, W3_v14]

/-- The second result buffer: no window of the second launch, so as the host left it. -/
theorem W4_v16 (c : Dev nD) : W4 m ρ c (Proc.devRef .tc main_v16) = member2 (W2 m ρ c (Proc.devRef .tc main_v9)) :=
  (W4_of_ne m ρ c main_v16 (by decide)).trans (W3_v16 m ρ c)

end Cert.KernelIdeal.KHost

end
-- ==== Proof.Triples.lean ====
/-
  Reading one member of each consecutive triple out of a row of 9216 entries.

  The row is recast as 3072 triples (1 × 3072 × 3), the member at offset o of every triple is sliced out (1 × 3072 × 1),
  and the unit axis is dropped (1 × 3072). Entry (0, q) of the result is entry (0, 3q + o) of the row. General in the
  element type and in the offset.
-/
import proofs.«155451_j36112085025538_2_alg».proof.Proof.Spec
import Idealize.ShloMosaic.Lib.Pipeline.Value
import Idealize.ShloMosaic.Lib.ValueIdx

namespace Cert.Triples

open Idealize.ShloMosaic Idealize.ShloMosaic.ValueIdx

theorem member_apply {α : Type} (o : ℕ) (ho : o < 3) (y : (⟨2, ![1, 9216]⟩ : Shape).Idx → α)
    (h1 : (⟨2, ![1, 9216]⟩ : Shape).ShapeCasts ⟨3, ![1, 3072, 3]⟩)
    (h2 : (⟨3, ![1, 3072, 3]⟩ : Shape).Slices ![0, 0, o] ⟨3, ![1, 3072, 1]⟩)
    (h3 : (⟨3, ![1, 3072, 1]⟩ : Shape).ShapeCasts ⟨2, ![1, 3072]⟩) (u : Fin 1) (q : Fin 3072) :
    shapeCast ⟨2, ![1, 3072]⟩ (extractStridedSlice ⟨3, ![1, 3072, 1]⟩ ![0, 0, o] (shapeCast ⟨3, ![1, 3072, 3]⟩ y h1) h2) h3 (ix2 u q)
      = y (ix2 (0 : Fin 1) (Cert.Spec.triple o ho q)) := by
  have hu : u.val = 0 := by omega
  have hq := q.isLt
  refine (shapeCast_apply _ h3 (ix2 u q) (ix3 (0 : Fin 1) q (0 : Fin 1)) ?_).trans ?_
  · rw [Shape.rowMajor_val_three, Shape.rowMajor_val_two]
    show ((0 : ℕ) * 3072 + q.val) * 1 + 0 = u.val * 3072 + q.val
    omega
  refine (extractStridedSlice_apply ![0, 0, o] _ h2 (ix3 (0 : Fin 1) q (0 : Fin 1)) (ix3 (0 : Fin 1) q (⟨o, ho⟩ : Fin 3)) ?_).trans ?_
  · intro a
    match a with
    | ⟨0, _⟩ => show (0 : ℕ) = 0 + 0; rfl
    | ⟨1, _⟩ => show q.val = 0 + q.val; omega
    | ⟨2, _⟩ => show o = o + 0; rfl
  refine shapeCast_apply y h1 (ix3 (0 : Fin 1) q (⟨o, ho⟩ : Fin 3)) (ix2 (0 : Fin 1) (Cert.Spec.triple o ho q)) ?_
  rw [Shape.rowMajor_val_two, Shape.rowMajor_val_three]
  show (0 : ℕ) * 9216 + (3 * q.val + o) = ((0 : ℕ) * 3072 + q.val) * 3 + o
  omega

end Cert.Triples
-- ==== Proof.KValue.lean ====
/-
  The idealized kernel program's two results are the specification.

  The first launch's output row is, entry by entry, the projection of the specification: the activated embedding row
  read at an entry is the activation of the embedding's entry, and the bias row recast from the bias vector reads the
  vector's entry. The host's slices read members of the projection's triples. The second launch's output is the rows of x
  normalised, scaled by member 1 and shifted by member 0; the second result is member 2.
-/
import proofs.«155451_j36112085025538_2_alg».proof.Proof.KRun
import proofs.«155451_j36112085025538_2_alg».proof.Proof.KHost
import proofs.«155451_j36112085025538_2_alg».proof.Proof.Triples
import Idealize.ShloMosaic.Lib.ValueLayout

set_option maxRecDepth 16384

noncomputable section

namespace Cert.KernelIdeal.KValue

open Cert.KernelIdeal Cert.KernelIdeal.Gen
open Idealize.ShloMosaic Idealize.ShloMosaic.TcCoe Idealize.ShloMosaic.ValueIdx
open Idealize.SL.Sem

/-- The activated embedding row at an entry is the activation of the embedding's entry. -/
theorem actRow_apply (emb : (⟨S1x3072, .f32⟩ : BufTy).Contents (Elt Ideal)) (i : S1x3072.Idx) :
    Cert.KernelIdeal.KHost.actRow emb i = Cert.Spec.act (emb i) := rfl

/-- Entry n of the first launch's output row is entry n of the specification's projection. -/
theorem row_apply (emb : (⟨S1x3072, .f32⟩ : BufTy).Contents (Elt Ideal)) (W : (⟨S9216x3072, .f32⟩ : BufTy).Contents (Elt Ideal))
    (b : (⟨S9216, .f32⟩ : BufTy).Contents (Elt Ideal)) (n : Fin 9216) :
    Cert.KernelIdeal.KArr0.row (Cert.KernelIdeal.KHost.actRow emb) W (shapeCast S1x9216 b shapeCasts_S9216_S1x9216) (ix2 (0 : Fin 1) n)
      = Cert.Spec.proj emb W b n := by
  show Cert.KernelIdeal.KArr0.entry _ _ _ n = _
  unfold Cert.KernelIdeal.KArr0.entry Cert.Spec.proj
  refine congrArg₂ (· + ·) (Finset.sum_congr rfl fun k _ => ?_) ?_
  · rw [actRow_apply]
  · exact shapeCast_a_1a_apply b shapeCasts_S9216_S1x9216 (0 : Fin 1) n

theorem member0_apply (e : (⟨S1x9216, .f32⟩ : BufTy).Contents (Elt Ideal)) (u : Fin 1) (q : Fin 3072) :
    Cert.KernelIdeal.KHost.member0 e (ix2 u q) = e (ix2 (0 : Fin 1) (Cert.Spec.triple 0 (by decide) q)) := by
  unfold Cert.KernelIdeal.KHost.member0
  exact Cert.Triples.member_apply 0 (by decide) e _ _ _ u q
theorem member1_apply (e : (⟨S1x9216, .f32⟩ : BufTy).Contents (Elt Ideal)) (u : Fin 1) (q : Fin 3072) :
    Cert.KernelIdeal.KHost.member1 e (ix2 u q) = e (ix2 (0 : Fin 1) (Cert.Spec.triple 1 (by decide) q)) := by
  unfold Cert.KernelIdeal.KHost.member1
  exact Cert.Triples.member_apply 1 (by decide) e _ _ _ u q
theorem member2_apply (e : (⟨S1x9216, .f32⟩ : BufTy).Contents (Elt Ideal)) (u : Fin 1) (q : Fin 3072) :
    Cert.KernelIdeal.KHost.member2 e (ix2 u q) = e (ix2 (0 : Fin 1) (Cert.Spec.triple 2 (by decide) q)) := by
  unfold Cert.KernelIdeal.KHost.member2
  exact Cert.Triples.member_apply 2 (by decide) e _ _ _ u q

variable (m : (ℓ : Loc nD τ sig) → Buf (Elt Ideal) ℓ) (ρ : Dev nD → PrngReg)

/-- The first result buffer holds the specification's first result. -/
theorem out_eq (c : Dev nD) : W4 m ρ c (Proc.devRef .tc main_v17)
    = Cert.Spec.out (m ((c : Thread nD τ).loc main_arg0)) (m ((c : Thread nD τ).loc main_arg1)) (m ((c : Thread nD τ).loc main_arg2)) (m ((c : Thread nD τ).loc main_arg3)) := by
  rw [Cert.KernelIdeal.KHost.W4_v17, Cert.KernelIdeal.KHost.W2_v9]
  funext i
  obtain ⟨a, r, q, rfl⟩ : ∃ (a : Fin 1) (r : Fin 8192) (q : Fin 3072), i = ix3 a r q := ⟨i 0, i 1, i 2, eq_ix3 i⟩
  show Cert.KernelIdeal.KArr1.entry _ _ _ r q = _
  unfold Cert.KernelIdeal.KArr1.entry
  rw [member1_apply, member0_apply, row_apply, row_apply]
  rfl

/-- The second result buffer holds the specification's second result. -/
theorem gate_eq (c : Dev nD) : W4 m ρ c (Proc.devRef .tc main_v16)
    = Cert.Spec.gate (m ((c : Thread nD τ).loc main_arg1)) (m ((c : Thread nD τ).loc main_arg2)) (m ((c : Thread nD τ).loc main_arg3)) := by
  rw [Cert.KernelIdeal.KHost.W4_v16, Cert.KernelIdeal.KHost.W2_v9]
  funext i
  obtain ⟨u, q, rfl⟩ : ∃ (u : Fin 1) (q : Fin 3072), i = ix2 u q := ⟨i 0, i 1, eq_ix2 i⟩
  rw [member2_apply, row_apply]
  rfl

/-- THE RUN of the idealized kernel program: both results at the specification of the arguments, the arguments kept. -/
theorem run : θ_run defs (onTc (τ := τ) (main (F := Ideal))) ⟨m, fun _ => 0, ρ⟩ (fun r => ∀ c : Dev nD,
      r.2.mem ((c.tc : Thread nD τ).loc main_v17)
        = Cert.Spec.out (m ((c : Thread nD τ).loc main_arg0)) (m ((c : Thread nD τ).loc main_arg1)) (m ((c : Thread nD τ).loc main_arg2)) (m ((c : Thread nD τ).loc main_arg3))
      ∧ r.2.mem ((c.tc : Thread nD τ).loc main_v16)
        = Cert.Spec.gate (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (out_eq m ρ c), (h c).2.1.trans (gate_eq m ρ c), (h c).2.2⟩)
    (Cert.KernelIdeal.KRun.run_results m ρ)

end Cert.KernelIdeal.KValue

end
-- ==== Proof.RefRead.lean ====
/-
  The reference's two results are the specification, entry by entry.

  The reference computes the activated embedding row, multiplies it by the transpose of W and adds b (the projection
  row), recasts the row as 3072 triples and slices the three members out; it normalises every row of x (sum, mean,
  centred entries, sum of squares, variance, reciprocal square root) and multiplies by the scale member and adds the
  shift member, both broadcast down the rows. Each stage is read at an index through the generated read lemmas; the host's
  sums start from a zero that is the extended real 0.
-/
import proofs.«155451_j36112085025538_2_alg».proof.Proof.Gen.ReferenceIdeal.Read
import proofs.«155451_j36112085025538_2_alg».proof.Proof.Spec
import proofs.«155451_j36112085025538_2_alg».proof.Proof.Triples
import Idealize.ShloMosaic.Lib.ValueIdx
import Idealize.ShloMosaic.PureOps.Ideal.Laws

noncomputable section

namespace Cert.ReferenceIdeal.RefRead

open Cert.ReferenceIdeal Cert.ReferenceIdeal.Gen Cert.ReferenceIdeal.Read
open Idealize.ShloMosaic Idealize.ShloMosaic.ValueIdx

variable (x0 : (⟨S1x8192x3072, .f32⟩ : BufTy).Contents (Elt Ideal)) (x1 : (⟨S1x3072, .f32⟩ : BufTy).Contents (Elt Ideal))
  (x2 : (⟨S9216x3072, .f32⟩ : BufTy).Contents (Elt Ideal)) (x3 : (⟨S9216, .f32⟩ : BufTy).Contents (Elt Ideal))

/-! ## The projection row -/

/-- The activated embedding row, entry by entry. -/
theorem act_apply (i : S1x3072.Idx) : val_main_v0 (F := Ideal) x1 i = Cert.Spec.act (x1 i) := by
  rw [val_main_v0_apply, val_main_call0_v5_apply, val_main_call0_v4_apply, val_main_call0_cst_0_apply,
    val_main_call0_v3_apply, val_main_call0_v2_apply, val_main_call0_cst_apply, val_main_call0_v1_apply,
    val_main_call0_v0_apply]
  rfl

/-- Entry n of the projection row: the product with the transposed W reads W at (n, k). -/
theorem proj_apply (n : Fin 9216) :
    val_main_v4 (F := Ideal) x1 x2 x3 (ix2 (0 : Fin 1) n) = Cert.Spec.proj x1 x2 x3 n := by
  rw [val_main_v4_apply, val_main_v2_apply, val_main_v3_apply]
  unfold Cert.Spec.proj
  show (∑ k : Fin 3072, _) + _ = _
  refine congrArg₂ (· + ·) (Finset.sum_congr rfl fun k _ => ?_) ?_
  · rw [val_main_v1_apply, act_apply]
    refine congrArg₂ (· * ·) (congrArg Cert.Spec.act (congrArg x1 ?_)) (congrArg x2 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x3 (funext fun a => Fin.ext (by match a with | ⟨0, _⟩ => rfl))

/-- The shift row: member 0 of the triples. -/
theorem shift_apply (u : Fin 1) (q : Fin 3072) :
    val_main_v7 (F := Ideal) x1 x2 x3 (ix2 u q) = Cert.Spec.proj x1 x2 x3 (Cert.Spec.triple 0 (by decide) q) := by
  unfold val_main_v7 val_main_v6 val_main_v5
  exact (Cert.Triples.member_apply 0 (by decide) (val_main_v4 (F := Ideal) x1 x2 x3) _ _ _ u q).trans (proj_apply x1 x2 x3 _)

/-- The scale row: member 1 of the triples. -/
theorem scale_apply (u : Fin 1) (q : Fin 3072) :
    val_main_v9 (F := Ideal) x1 x2 x3 (ix2 u q) = Cert.Spec.proj x1 x2 x3 (Cert.Spec.triple 1 (by decide) q) := by
  unfold val_main_v9 val_main_v8 val_main_v5
  exact (Cert.Triples.member_apply 1 (by decide) (val_main_v4 (F := Ideal) x1 x2 x3) _ _ _ u q).trans (proj_apply x1 x2 x3 _)

/-- The gate row, the second result: member 2 of the triples. -/
theorem gate_apply (u : Fin 1) (q : Fin 3072) :
    val_main_v11 (F := Ideal) x1 x2 x3 (ix2 u q) = Cert.Spec.proj x1 x2 x3 (Cert.Spec.triple 2 (by decide) q) := by
  unfold val_main_v11 val_main_v10 val_main_v5
  exact (Cert.Triples.member_apply 2 (by decide) (val_main_v4 (F := Ideal) x1 x2 x3) _ _ _ u q).trans (proj_apply x1 x2 x3 _)

/-! ## The normalisation -/

/-- The mean of row r, wherever the kept unit axes are read. -/
theorem mean_apply (r : Fin 8192) (j : S1x8192x1.Idx) (hj : (j 1).val = r.val) :
    val_main_v15 (F := Ideal) x0 j = Cert.Spec.mean (fun k => x0 (ix3 (0 : Fin 1) r k)) := by
  rw [val_main_v15_apply, val_main_v13_apply, val_main_v12_apply, val_main_v14_apply, val_main_cst_0_apply, val_main_cst_apply]
  unfold Cert.Spec.mean
  show Ideal.div (Ideal.ofBits .f32 0x00000000#32 + _) _ = _
  rw [Ideal.ofBits_zero_f32, zero_add]
  refine congrArg (Ideal.div · _) (Finset.sum_congr rfl fun k _ => congrArg x0 ?_)
  exact funext fun a => Fin.ext (by
    match a with
    | ⟨0, _⟩ => rfl
    | ⟨1, _⟩ => exact hj
    | ⟨2, _⟩ => rfl)

/-- The centred entry (the reference computes it twice, the same way). -/
theorem centred_apply (r : Fin 8192) (q : Fin 3072) :
    val_main_v17 (F := Ideal) x0 (ix3 (0 : Fin 1) r q) = Cert.Spec.centred (fun k => x0 (ix3 (0 : Fin 1) r k)) q := by
  rw [val_main_v17_apply, val_main_v16_apply, mean_apply x0 r _ rfl]
  rfl

theorem centred_apply' (r : Fin 8192) (q : Fin 3072) :
    val_main_v24 (F := Ideal) x0 (ix3 (0 : Fin 1) r q) = Cert.Spec.centred (fun k => x0 (ix3 (0 : Fin 1) r k)) q := by
  rw [val_main_v24_apply, val_main_v23_apply, mean_apply x0 r _ rfl]
  rfl

/-- The reciprocal square root of the variance of row r plus ε. -/
theorem rstd_apply (r : Fin 8192) (j : S1x8192x1.Idx) (hj : (j 1).val = r.val) :
    val_main_v27 (F := Ideal) x0 j
      = Ideal.rsqrt (Ideal.div (∑ k : Fin 3072, Cert.Spec.centred (fun k => x0 (ix3 (0 : Fin 1) r k)) k * Cert.Spec.centred (fun k => x0 (ix3 (0 : Fin 1) r k)) k)
          (Ideal.ofBits .f32 0x45400000#32) + Ideal.ofBits .f32 0x358637BD#32) := by
  rw [val_main_v27_apply, val_main_v26_apply, val_main_v22_apply, val_main_v20_apply, val_main_v19_apply, val_main_v21_apply,
    val_main_cst_2_apply, val_main_v25_apply, val_main_cst_3_apply, val_main_cst_1_apply]
  show Ideal.rsqrt (Ideal.div (Ideal.ofBits .f32 0x00000000#32 + _) _ + _) = _
  rw [Ideal.ofBits_zero_f32, zero_add]
  refine congrArg (fun s => Ideal.rsqrt (Ideal.div s _ + _)) (Finset.sum_congr rfl fun k _ => ?_)
  have e : idx_main_v19 (idx_main_v20 j) k = ix3 (0 : Fin 1) r k := funext fun a => Fin.ext (by
    match a with
    | ⟨0, _⟩ => rfl
    | ⟨1, _⟩ => exact hj
    | ⟨2, _⟩ => rfl)
  rw [e, val_main_v18_apply, centred_apply]
  rfl

/-- THE FIRST RESULT at (0, r, q). -/
theorem out_apply (r : Fin 8192) (q : Fin 3072) :
    val_main_v35 (F := Ideal) x0 x1 x2 x3 (ix3 (0 : Fin 1) r q)
      = Cert.Spec.modulated (fun k => x0 (ix3 (0 : Fin 1) r k)) q (Cert.Spec.proj x1 x2 x3 (Cert.Spec.triple 1 (by decide) q))
          (Cert.Spec.proj x1 x2 x3 (Cert.Spec.triple 0 (by decide) q)) := by
  rw [val_main_v35_apply, val_main_v32_apply, val_main_v29_apply, centred_apply', val_main_v28_apply, rstd_apply x0 r _ rfl,
    val_main_v31_apply, val_main_v30_apply, val_main_v34_apply, val_main_v33_apply]
  have e1 : idx_main_v30 (idx_main_v31 (ix3 (0 : Fin 1) r q)) = ix2 (0 : Fin 1) q := funext fun a => Fin.ext (by
    match a with
    | ⟨0, _⟩ => rfl
    | ⟨1, _⟩ => rfl)
  have e2 : idx_main_v33 (idx_main_v34 (ix3 (0 : Fin 1) r q)) = ix2 (0 : Fin 1) q := funext fun a => Fin.ext (by
    match a with
    | ⟨0, _⟩ => rfl
    | ⟨1, _⟩ => rfl)
  rw [e1, e2, scale_apply, shift_apply]
  rfl

theorem out_eq : val_main_v35 (F := Ideal) x0 x1 x2 x3 = Cert.Spec.out x0 x1 x2 x3 := by
  funext i
  obtain ⟨a, r, q, rfl⟩ : ∃ (a : Fin 1) (r : Fin 8192) (q : Fin 3072), i = ix3 a r q := ⟨i 0, i 1, i 2, eq_ix3 i⟩
  obtain rfl : a = 0 := Subsingleton.elim _ _
  exact out_apply x0 x1 x2 x3 r q

theorem gate_eq : val_main_v11 (F := Ideal) x1 x2 x3 = Cert.Spec.gate x1 x2 x3 := by
  funext i
  obtain ⟨u, q, rfl⟩ : ∃ (u : Fin 1) (q : Fin 3072), i = ix2 u q := ⟨i 0, i 1, eq_ix2 i⟩
  exact gate_apply x1 x2 x3 u q

end Cert.ReferenceIdeal.RefRead

end
-- ==== Proof.lean ====
/-
  The certificate: a projection kernel and a normalisation kernel against their plain reference, over the extended reals.

  Both programs compute, from x (1 × 8192 × 3072), emb (1 × 3072), W (9216 × 3072) and b (9216):
    e(n)   = Σ_k act(emb(0, k)) · W(n, k) + b(n),   act(v) = v · (1 / (1 + e^(−v))),
    out(0, r, q) = normalised(x(0, r, ·))(q) · e(3q + 1) + e(3q),   gate(0, q) = e(3q + 2),
  where a row is normalised by its mean and the reciprocal square root of its variance plus ε (Proof/Spec.lean).
  The kernel program computes e in 18 blocks of 512 entries on the matrix unit (a contraction into a zero accumulator
  is the sum) and the normalisation in 32 blocks of 256 rows; the reference computes e by one product with the
  transposed W and normalises all rows at once. At the exact values a change of float format is the identity and a sum
  is a sum whatever its schedule, so the two are the same function of the arguments, entry by entry; no law needs the
  inputs to be finite, and the precondition is never opened.
  • the frames of the two kernel programs are the generated ones; the reference's frame is its generated run with the
    results dropped;
  • the idealization rewrote nothing, so it is preserved trivially;
  • the kernel program's run ends with both result buffers at the specification (Proof/KValue.lean), and the reference's
    generated run ends at its composed term, which is the specification entry by entry (Proof/RefRead.lean).
-/
import proofs.«155451_j36112085025538_2_alg».proof.Defs
import proofs.«155451_j36112085025538_2_alg».proof.Proof.Gen.Kernel
import proofs.«155451_j36112085025538_2_alg».proof.Proof.Gen.Kernel.Skeleton
import proofs.«155451_j36112085025538_2_alg».proof.Proof.Gen.Kernel.Launch
import proofs.«155451_j36112085025538_2_alg».proof.Proof.Gen.Kernel.Points
import proofs.«155451_j36112085025538_2_alg».proof.Proof.Gen.Kernel.Frame
import proofs.«155451_j36112085025538_2_alg».proof.Proof.Gen.KernelIdeal
import proofs.«155451_j36112085025538_2_alg».proof.Proof.Gen.KernelIdeal.Skeleton
import proofs.«155451_j36112085025538_2_alg».proof.Proof.Gen.KernelIdeal.Launch
import proofs.«155451_j36112085025538_2_alg».proof.Proof.Gen.KernelIdeal.Points
import proofs.«155451_j36112085025538_2_alg».proof.Proof.Gen.KernelIdeal.Frame
import proofs.«155451_j36112085025538_2_alg».proof.Proof.Gen.ReferenceIdeal
import proofs.«155451_j36112085025538_2_alg».proof.Proof.Gen.ReferenceIdeal.Run
import proofs.«155451_j36112085025538_2_alg».proof.Proof.Gen.ReferenceIdeal.Read
import proofs.«155451_j36112085025538_2_alg».proof.Proof.Gen.Pre_finite_inputs
import proofs.«155451_j36112085025538_2_alg».proof.Proof.KValue
import proofs.«155451_j36112085025538_2_alg».proof.Proof.RefRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with both results at the specification of their (agreeing) arguments. -/
theorem algebraic : Cert.algebraic_KernelIdeal_ReferenceIdeal := by
  intro m ρ m' ρ' _ hagree
  refine ⟨_, _, Cert.KernelIdeal.KValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v35_eq, Cert.ReferenceIdeal.RefRead.out_eq,
      (hagree c).1, (hagree c).2.1, (hagree c).2.2.1, (hagree c).2.2.2]
  · rw [(h c).2.1, Cert.ReferenceIdeal.Read.val_main_v11_eq, Cert.ReferenceIdeal.RefRead.gate_eq,
      (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
